-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.NamedRun.lean ====
/-
  The idealized kernel's run with its result named.

  @main is nine segments: three stretches of host operations (the edge lists with self loops, the degrees, the
  normalisation weights), the first linear map, the first aggregation, the first epilogue, the second linear map, the
  second aggregation, the second epilogue.  The contents of every buffer at each segment boundary are a fold from the
  launch memory: a stretch applies its operations; a kernel region replaces its three arrays by what its write-backs
  leave and keeps every other buffer.  Every weakly fair execution terminates, nothing faulting, with every unscoped
  buffer at the last boundary's contents; read at the result buffer that is the ninth boundary's contents there, and read
  at an argument it is the launch contents, since no segment writes an argument.
-/
import proofs.«110877_j2284922601980_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the result
    buffer at the last boundary's contents and the six argument arrays as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.Chain.lean ====
/-
  The graph side of the two layers, as functions of arrays, and the host stretches of the idealized kernel read as them.

  Both programs prepare the same things on the host, with the same operations in the same order.  The edge list
  [2, 800000] gives the 800000 source nodes (row 0) and target nodes (row 1), each followed by 0 … 49999: one self loop
  per node, 850000 edges in all.  A node's degree is the number of edges that end in it (a scatter-add of ones into
  zeros); its inverse root is degree^(-1/2) where the degree is positive and 0 elsewhere; an edge's weight is the product
  of the inverse roots of its two ends (the ends read with negative indices wrapped around by 50000).  One aggregation
  takes node features h, reads the row of each edge's source, scales it by the edge's weight, and adds it into the row
  of the edge's target, starting from zeros.

  None of these functions is ever opened below: the two programs apply the same ones to equal arrays.  What is proved
  here is only that each stretch of host operations of the idealized kernel, run from any buffer contents, leaves in
  the buffers it writes these functions of the buffers it reads, and leaves every other buffer as it was.
-/
import proofs.«110877_j2284922601980_1_alg».proof.Proof.Gen.KernelIdeal.Launch
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]

/-! ## The functions -/

/-- The edges' source nodes: row 0 of the edge list, then one self loop per node. -/
def sources (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The edges' target nodes: row 1 of the edge list, then one self loop per node. -/
def targets (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- Node numbers as gather indices: a negative number is wrapped around by 50000. -/
def wrapped (idx : (⟨S850000, .i32⟩ : BufTy).Contents (Elt F)) : (⟨S850000, .i32⟩ : BufTy).Contents (Elt F) :=
  select (cmpi .slt idx (broadcastInDim S850000 ![] bcast_S_S850000 (constantI S_ 32 0#32)))
    (addi idx (broadcastInDim S850000 ![] bcast_S_S850000 (constantI S_ 32 50000#32))) idx

/-- A node's degree: the number of edges that end in it. -/
def degree (dst : (⟨S850000, .i32⟩ : BufTy).Contents (Elt F)) : (⟨S50000, .f32⟩ : BufTy).Contents (Elt F) :=
  Host.scatterAdd (F := F) scatter_S50000_S850000x1_S850000_n_0_0_1
    (broadcastInDim S50000 ![] bcast_S_S50000 (constant (F := F) S_ .f32 0x00000000#32))
    (broadcastInDim S850000x1 ![0] bcast_S850000_S850000x1_0 dst)
    (broadcastInDim S850000 ![] bcast_S_S850000 (constant (F := F) S_ .f32 0x3F800000#32))

/-- A node's inverse root: degree^(-1/2) where the degree is positive, 0 elsewhere. -/
def inverseRoot (dst : (⟨S850000, .i32⟩ : BufTy).Contents (Elt F)) : (⟨S50000, .f32⟩ : BufTy).Contents (Elt F) :=
  select (cmpf (F := F) .ogt (degree (F := F) dst) (broadcastInDim S50000 ![] bcast_S_S50000 (constant (F := F) S_ .f32 0x00000000#32)))
    (Host.rsqrt (F := F) (degree (F := F) dst))
    (broadcastInDim S50000 ![] bcast_S_S50000 (id (constant (F := F) S_ .f32 0x00000000#32)))

/-- An edge's weight: the product of the inverse roots of its source and of its target. -/
def weights (src dst : (⟨S850000, .i32⟩ : BufTy).Contents (Elt F)) : (⟨S850000, .f32⟩ : BufTy).Contents (Elt F) :=
  mulf (Host.gather gather_S50000_S850000x1_S850000_n_0_n_n_0_1_1 (inverseRoot (F := F) dst) (broadcastInDim S850000x1 ![0] bcast_S850000_S850000x1_0 (wrapped (F := F) src)))
    (Host.gather gather_S50000_S850000x1_S850000_n_0_n_n_0_1_1 (inverseRoot (F := F) dst) (broadcastInDim S850000x1 ![0] bcast_S850000_S850000x1_0 (wrapped (F := F) dst)))

/-- One aggregation of 128-wide node features: each edge's source row, scaled by the edge's weight, added into its target row. -/
def aggregate128 (src dst : (⟨S850000, .i32⟩ : BufTy).Contents (Elt F)) (nrm : (⟨S850000, .f32⟩ : BufTy).Contents (Elt F)) (h : (⟨S50000x128, .f32⟩ : BufTy).Contents (Elt F)) :
    (⟨S50000x128, .f32⟩ : BufTy).Contents (Elt F) :=
  Host.scatterAdd (F := F) scatter_S50000x128_S850000x1_S850000x128_1_0_0_1
    (broadcastInDim S50000x128 ![] bcast_S_S50000x128 (constant (F := F) S_ .f32 0x00000000#32))
    (broadcastInDim S850000x1 ![0] bcast_S850000_S850000x1_0 dst)
    (mulf (Host.gather gather_S50000x128_S850000x1_S850000x128_1_0_n_n_0_1_1128 h (broadcastInDim S850000x1 ![0] bcast_S850000_S850000x1_0 (wrapped (F := F) src)))
      (broadcastInDim S850000x128 ![0, 1] bcast_S850000x1_S850000x128_0_1 (broadcastInDim S850000x1 ![0] bcast_S850000_S850000x1_0 nrm)))

/-- One aggregation of 64-wide node features. -/
def aggregate64 (src dst : (⟨S850000, .i32⟩ : BufTy).Contents (Elt F)) (nrm : (⟨S850000, .f32⟩ : BufTy).Contents (Elt F)) (h : (⟨S50000x64, .f32⟩ : BufTy).Contents (Elt F)) :
    (⟨S50000x64, .f32⟩ : BufTy).Contents (Elt F) :=
  Host.scatterAdd (F := F) scatter_S50000x64_S850000x1_S850000x64_1_0_0_1
    (broadcastInDim S50000x64 ![] bcast_S_S50000x64 (constant (F := F) S_ .f32 0x00000000#32))
    (broadcastInDim S850000x1 ![0] bcast_S850000_S850000x1_0 dst)
    (mulf (Host.gather gather_S50000x64_S850000x1_S850000x64_1_0_n_n_0_1_164 h (broadcastInDim S850000x1 ![0] bcast_S850000_S850000x1_0 (wrapped (F := F) src)))
      (broadcastInDim S850000x64 ![0, 1] bcast_S850000x1_S850000x64_0_1 (broadcastInDim S850000x1 ![0] bcast_S850000_S850000x1_0 nrm)))

/-! ## The three stretches before the first kernel region -/

/-- The contents after the three stretches that prepare the edges, from contents `W`. -/
abbrev prepared (W : Valuation τ sig (Elt F)) : Valuation τ sig (Elt F) :=
  StableHlo.after (hostOps0_2 (F := F)) (StableHlo.after (hostOps0_1 (F := F)) (StableHlo.after (hostOps0 (F := F)) W))

set_option maxHeartbeats 8000000 in
theorem prepared_sources (W : Valuation τ sig (Elt F)) :
    prepared W (Proc.devRef .tc main_v3) = sources (F := F) (W (Proc.devRef .tc main_arg1)) := by
  unfold sources
  after_results_simp <;> rfl

set_option maxHeartbeats 8000000 in
theorem prepared_targets (W : Valuation τ sig (Elt F)) :
    prepared W (Proc.devRef .tc main_v6) = targets (F := F) (W (Proc.devRef .tc main_arg1)) := by
  unfold targets
  after_results_simp <;> rfl

set_option maxHeartbeats 16000000 in
theorem prepared_weights (W : Valuation τ sig (Elt F)) :
    prepared W (Proc.devRef .tc main_v29)
      = weights (F := F) (sources (F := F) (W (Proc.devRef .tc main_arg1))) (targets (F := F) (W (Proc.devRef .tc main_arg1))) := by
  unfold weights inverseRoot degree wrapped sources targets
  after_results_simp <;> rfl

set_option maxHeartbeats 8000000 in
/-- The three stretches write none of the five float arguments. -/
theorem prepared_args (W : Valuation τ sig (Elt F)) :
    prepared W (Proc.devRef .tc main_arg0) = W (Proc.devRef .tc main_arg0)
    ∧ prepared W (Proc.devRef .tc main_arg2) = W (Proc.devRef .tc main_arg2)
    ∧ prepared W (Proc.devRef .tc main_arg3) = W (Proc.devRef .tc main_arg3)
    ∧ prepared W (Proc.devRef .tc main_arg4) = W (Proc.devRef .tc main_arg4)
    ∧ prepared W (Proc.devRef .tc main_arg5) = W (Proc.devRef .tc main_arg5) := by
  refine ⟨?_, ?_, ?_, ?_, ?_⟩ <;> (after_results_simp <;> rfl)

/-! ## The stretch between the first linear map and the first epilogue -/

set_option maxHeartbeats 8000000 in
theorem first_aggregate (W : Valuation τ sig (Elt F)) :
    StableHlo.after (hostOps1 (F := F)) W (Proc.devRef .tc main_v43)
      = aggregate128 (F := F) (W (Proc.devRef .tc main_v3)) (W (Proc.devRef .tc main_v6)) (W (Proc.devRef .tc main_v29)) (W (Proc.devRef .tc main_v30)) := by
  unfold aggregate128 wrapped
  after_results_simp <;> rfl

set_option maxHeartbeats 8000000 in
/-- The first bias, laid out as a row. -/
theorem first_bias_row (W : Valuation τ sig (Elt F)) :
    StableHlo.after (hostOps1 (F := F)) W (Proc.devRef .tc main_v44)
      = shapeCast S1x128 (W (Proc.devRef .tc main_arg3) : (⟨S128, .f32⟩ : BufTy).Contents (Elt F)) shapeCasts_S128_S1x128 := by
  after_results_simp <;> rfl

set_option maxHeartbeats 8000000 in
/-- The stretch keeps the edges, the weights and the second layer's parameters. -/
theorem first_keeps (W : Valuation τ sig (Elt F)) :
    StableHlo.after (hostOps1 (F := F)) W (Proc.devRef .tc main_v3) = W (Proc.devRef .tc main_v3)
    ∧ StableHlo.after (hostOps1 (F := F)) W (Proc.devRef .tc main_v6) = W (Proc.devRef .tc main_v6)
    ∧ StableHlo.after (hostOps1 (F := F)) W (Proc.devRef .tc main_v29) = W (Proc.devRef .tc main_v29)
    ∧ StableHlo.after (hostOps1 (F := F)) W (Proc.devRef .tc main_arg4) = W (Proc.devRef .tc main_arg4)
    ∧ StableHlo.after (hostOps1 (F := F)) W (Proc.devRef .tc main_arg5) = W (Proc.devRef .tc main_arg5) := by
  refine ⟨?_, ?_, ?_, ?_, ?_⟩ <;> (after_results_simp <;> rfl)

/-! ## The stretch between the second linear map and the second epilogue -/

set_option maxHeartbeats 8000000 in
theorem second_aggregate (W : Valuation τ sig (Elt F)) :
    StableHlo.after (hostOps3 (F := F)) W (Proc.devRef .tc main_v59)
      = aggregate64 (F := F) (W (Proc.devRef .tc main_v3)) (W (Proc.devRef .tc main_v6)) (W (Proc.devRef .tc main_v29)) (W (Proc.devRef .tc main_v46)) := by
  unfold aggregate64 wrapped
  after_results_simp <;> rfl

set_option maxHeartbeats 8000000 in
/-- The second bias, laid out as a row. -/
theorem second_bias_row (W : Valuation τ sig (Elt F)) :
    StableHlo.after (hostOps3 (F := F)) W (Proc.devRef .tc main_v60)
      = shapeCast S1x64 (W (Proc.devRef .tc main_arg5) : (⟨S64, .f32⟩ : BufTy).Contents (Elt F)) shapeCasts_S64_S1x64 := by
  after_results_simp <;> rfl

end Cert.KernelIdeal.Chain

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«110877_j2284922601980_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«110877_j2284922601980_1_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.Linear1.lean ====
/-
  The first layer's linear map: after the first kernel region its output array is the product x · W1.

  The grid has 25 points; point t stages rows 2000·t … 2000·t + 1999 of the left operand, the whole right operand,
  and writes back rows 2000·t … 2000·t + 1999 of the output.  The body multiplies its row block by the whole right
  operand on the matrix unit, into the zero accumulator; the change of float format before the product is the
  identity at the ideal values.  So the entry the body leaves at the local index (p, q) is the sum over k of
  x (2000·t + p, k) · w (k, q): the entry of the whole product at (2000·t + p, q).  The 25 row blocks tile the
  50000 rows, so after the region the output array is the whole product [50000, 128] · [128, 128], for any
  contents of the two operand arrays at the region's entry.  No finiteness is used: both sides are one sum.
-/
import proofs.«110877_j2284922601980_1_alg».proof.Proof.Gen.KernelIdeal.Frame
import proofs.«110877_j2284922601980_1_alg».proof.Proof.LibDotBlocks
import Idealize.ShloMosaic.Lib.Pipeline.Value
import Idealize.ShloMosaic.Lib.ValueIdx

set_option maxRecDepth 16384

noncomputable section

namespace Cert.KernelIdeal.Layers.Linear1

open Idealize.ShloMosaic Idealize.ShloMosaic.TcCoe Idealize.ShloMosaic.ValueIdx Idealize.SL.Sem
open Cert.KernelIdeal Cert.KernelIdeal.Gen

/-- The offset (0, 0) of a whole-buffer rectangle is the zero offset. -/
theorem origin2 : (![0, 0] : Fin 2 → Nat) = fun _ => 0 := funext fun a => by fin_cases a <;> rfl

/-- The body's product at a local index is the whole product at an array index, when the local row is the array
    index's row of the left operand and the local column is the array index's column of the right operand. -/
theorem blockProduct_apply (x : FVec Ideal S50000x128 .f32) (w : FVec Ideal S128x128 .f32)
    (xb : Vec Ideal S2000x128 .f32) (wb : Vec Ideal S128x128 .f32) (j : S2000x128.Idx) (i : S50000x128.Idx)
    (hx : ∀ k : Fin 128, xb (ix2 (j 0) k) = x (ix2 (i 0) k))
    (hw : ∀ k : Fin 128, wb (ix2 k (j 1)) = w (ix2 k (i 1))) :
    k0_pay1 xb wb j = Host.dotGeneral (F := Ideal) (DotDims.plain 50000 128 128) none x w i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hx' : ∀ k : Fin 128, xb (ix2 p k) = x (ix2 r k) := hx
  have hw' : ∀ k : Fin 128, wb (ix2 k q) = w (ix2 k s) := hw
  unfold k0_pay1
  exact Cert.Lib.DotBlocks.matmul_block_eq_dotGeneral (M := 50000) (K := 128) (N := 128) (B := 2000) (D := 128) none none x w _ _
    p q r s hx' hw'

/-- The printed index maps, decided over the 25 grid points: the left operand's block and the output's block are the
    same block of rows, on the one block of columns; the right operand's block is the whole array. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every block of rows is some point's. -/
theorem index_onto : ∀ q0 : Fin 25, ∃ t : Fin cfg0.N, win0_2.index t = ![q0.val, 0] :=
  (by decide +kernel : ∀ q0 : Fin 25, ∃ t : Fin grid0.N, win0_2.index t = ![q0.val, 0])

variable (V : (c : Dev nD) → (b : Ref sig .tc) → Buf (Elt Ideal) ((c : Thread nD τ).loc b))

/-- What point `t` writes back is block `t` of the whole product of the two operand arrays as the region finds them. -/
theorem flushed_eq (c : Dev nD) (t : Fin cfg0.N) :
    (dat0 V c).flushed 2 t = ((cfg0.win 2).blk t).view.read (Elt Ideal)
      (Host.dotGeneral (F := Ideal) (φ₁ := .f32) (φ₂ := .f32) (DotDims.plain 50000 128 128) none (V c main_arg0) (V c main_arg2)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x128) origin2]
  obtain ⟨e0, e1, e2, e3, e4, e5⟩ := index_facts t
  funext j
  refine blockProduct_apply (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 row blocks cover the output array: row r is in block r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region its output array is the whole product of the two operand arrays as the region found them. -/
theorem output_eq (c : Dev nD) :
    (dat0 V c).arrAt 2 cfg0.N
      = Host.dotGeneral (F := Ideal) (φ₁ := .f32) (φ₂ := .f32) (DotDims.plain 50000 128 128) none (V c main_arg0) (V c main_arg2) :=
  (dat0 V c).arrAt_eq_of_cover 2 _ (fun t _ => flushed_eq V c t) covered

end Cert.KernelIdeal.Layers.Linear1

end
-- ==== Proof.Linear2.lean ====
/-
  The second layer's linear map: after the third kernel region its output array is the product h · W2.

  The grid has 25 points; point t stages rows 2000·t … 2000·t + 1999 of the left operand, the whole right operand,
  and writes back rows 2000·t … 2000·t + 1999 of the output.  The body multiplies its row block by the whole right
  operand on the matrix unit, into the zero accumulator; the change of float format before the product is the
  identity at the ideal values.  So the entry the body leaves at the local index (p, q) is the sum over k of
  x (2000·t + p, k) · w (k, q): the entry of the whole product at (2000·t + p, q).  The 25 row blocks tile the
  50000 rows, so after the region the output array is the whole product [50000, 128] · [128, 64], for any
  contents of the two operand arrays at the region's entry.  No finiteness is used: both sides are one sum.
-/
import proofs.«110877_j2284922601980_1_alg».proof.Proof.Gen.KernelIdeal.Frame
import proofs.«110877_j2284922601980_1_alg».proof.Proof.LibDotBlocks
import Idealize.ShloMosaic.Lib.Pipeline.Value
import Idealize.ShloMosaic.Lib.ValueIdx

set_option maxRecDepth 16384

noncomputable section

namespace Cert.KernelIdeal.Layers.Linear2

open Idealize.ShloMosaic Idealize.ShloMosaic.TcCoe Idealize.ShloMosaic.ValueIdx Idealize.SL.Sem
open Cert.KernelIdeal Cert.KernelIdeal.Gen

/-- The offset (0, 0) of a whole-buffer rectangle is the zero offset. -/
theorem origin2 : (![0, 0] : Fin 2 → Nat) = fun _ => 0 := funext fun a => by fin_cases a <;> rfl

/-- The body's product at a local index is the whole product at an array index, when the local row is the array
    index's row of the left operand and the local column is the array index's column of the right operand. -/
theorem blockProduct_apply (x : FVec Ideal S50000x128 .f32) (w : FVec Ideal S128x64 .f32)
    (xb : Vec Ideal S2000x128 .f32) (wb : Vec Ideal S128x64 .f32) (j : S2000x64.Idx) (i : S50000x64.Idx)
    (hx : ∀ k : Fin 128, xb (ix2 (j 0) k) = x (ix2 (i 0) k))
    (hw : ∀ k : Fin 128, wb (ix2 k (j 1)) = w (ix2 k (i 1))) :
    k2_pay1 xb wb j = Host.dotGeneral (F := Ideal) (DotDims.plain 50000 128 64) none x w i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  have hx' : ∀ k : Fin 128, xb (ix2 p k) = x (ix2 r k) := hx
  have hw' : ∀ k : Fin 128, wb (ix2 k q) = w (ix2 k s) := hw
  unfold k2_pay1
  simp only [shapeCast_self]
  exact Cert.Lib.DotBlocks.matmul_block_eq_dotGeneral (M := 50000) (K := 128) (N := 64) (B := 2000) (D := 64) none none x w _ _
    p q r s hx' hw'

/-- The printed index maps, decided over the 25 grid points: the left operand's block and the output's block are the
    same block of rows, on the one block of columns; the right operand's block is the whole array. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every block of rows is some point's. -/
theorem index_onto : ∀ q0 : Fin 25, ∃ t : Fin cfg2.N, win2_2.index t = ![q0.val, 0] :=
  (by decide +kernel : ∀ q0 : Fin 25, ∃ t : Fin grid2.N, win2_2.index t = ![q0.val, 0])

variable (V : (c : Dev nD) → (b : Ref sig .tc) → Buf (Elt Ideal) ((c : Thread nD τ).loc b))

/-- What point `t` writes back is block `t` of the whole product of the two operand arrays as the region finds them. -/
theorem flushed_eq (c : Dev nD) (t : Fin cfg2.N) :
    (dat2 V c).flushed 2 t = ((cfg2.win 2).blk t).view.read (Elt Ideal)
      (Host.dotGeneral (F := Ideal) (φ₁ := .f32) (φ₂ := .f32) (DotDims.plain 50000 128 64) none (V c main_v45) (V c main_arg4)) := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x64) origin2]
  obtain ⟨e0, e1, e2, e3, e4, e5⟩ := index_facts t
  funext j
  refine blockProduct_apply (V c main_v45) (V c main_arg4) (iblk2 V c 0 t) (iblk2 V c 1 t) j (((cfg2.win 2).blk t).view.emb j)
    (fun k => ?_) (fun k => ?_)
  · show V c main_v45 (((cfg2.win 0).blk t).view.emb (ix2 (j 0) k)) = V c main_v45 (ix2 ((((cfg2.win 2).blk t).view.emb j) 0) k)
    refine congrArg (V c main_v45) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg4 (((cfg2.win 1).blk t).view.emb (ix2 k (j 1))) = V c main_arg4 (ix2 k ((((cfg2.win 2).blk t).view.emb j) 1))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v46).slice (win2_2.rect t)).set ↔ _
  rw [View.set_slice_whole, Rect.mem_set_unit]
  exact Iff.rfl

/-- The 25 row blocks cover the output array: row r is in block r / 2000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region its output array is the whole product of the two operand arrays as the region found them. -/
theorem output_eq (c : Dev nD) :
    (dat2 V c).arrAt 2 cfg2.N
      = Host.dotGeneral (F := Ideal) (φ₁ := .f32) (φ₂ := .f32) (DotDims.plain 50000 128 64) none (V c main_v45) (V c main_arg4) :=
  (dat2 V c).arrAt_eq_of_cover 2 _ (fun t _ => flushed_eq V c t) covered

end Cert.KernelIdeal.Layers.Linear2

end
-- ==== Proof.Epilogue1.lean ====
/-
  The first layer's epilogue: after the second kernel region its output array is max (agg + b1, 0).

  The grid has 25 points; point t stages rows 2000·t … 2000·t + 1999 of the aggregated features, the one row of the
  bias, and writes back the same rows of the output.  The body adds the bias row to every row of its block and takes
  the maximum with zero:
  the entry it leaves at the local index (p, q) is max (x (2000·t + p, q) + b (0, q), 0).  That is the entry at
  (2000·t + p, q) of the whole-array expression "x plus the bias row repeated down the rows, then the maximum with the
  zero array", and the 25 row blocks tile the 50000 rows: after the region the output array is that expression of the
  two arrays the region found, whatever they hold.  Both sides are the same sum and maximum on the extended reals.
-/
import proofs.«110877_j2284922601980_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Layers.Epilogue1

open Idealize.ShloMosaic Idealize.ShloMosaic.TcCoe Idealize.ShloMosaic.ValueIdx Idealize.SL.Sem
open Cert.KernelIdeal Cert.KernelIdeal.Gen

/-- The offset (0, 0) of a whole-buffer rectangle is the zero offset. -/
theorem origin2 : (![0, 0] : Fin 2 → Nat) = fun _ => 0 := funext fun a => by fin_cases a <;> rfl

/-- The body's result at the local index (p, q): the block's entry plus the bias row's entry in that column, or zero if
    that is larger. -/
theorem payload_apply (xb : Vec Ideal S2000x128 .f32) (bb : Vec Ideal S1x128 .f32) (p : Fin 2000) (q : Fin 128) :
    k1_pay1 xb bb (ix2 p q) = max (xb (ix2 p q) + bb (ix2 (0 : Fin 1) q)) (Ideal.ofBits .f32 0x00000000#32) := by
  unfold k1_pay1
  simp only [shapeCast_self]
  rw [maximumf_apply, addf_apply, broadcastTo_1b_ab_apply, broadcast_apply]
  rfl

/-- The whole-array expression at the index (r, s): the array's entry plus the bias row's entry in column s, or zero if
    that is larger. -/
theorem whole_apply (h1 : S1x128.BroadcastsInDim S50000x128 ![0, 1]) (h0 : S_.BroadcastsInDim S50000x128 ![]) (X : FVec Ideal S50000x128 .f32) (B : FVec Ideal S1x128 .f32)
    (r : Fin 50000) (s : Fin 128) :
    (maximumf (addf X (broadcastInDim S50000x128 ![0, 1] h1 B)) (broadcastInDim S50000x128 ![] h0 (constant (F := Ideal) S_ .f32 0x00000000#32))) (ix2 r s) = max (X (ix2 r s) + B (ix2 (0 : Fin 1) s)) (Ideal.ofBits .f32 0x00000000#32) := by
  rw [maximumf_apply, addf_apply, broadcastInDim_apply ![0, 1] h1 B (ix2 r s) (ix2 (0 : Fin 1) s) (fun a => by
    match a with
    | ⟨0, _⟩ => rfl
    | ⟨1, _⟩ => rfl), broadcastInDim_apply ![] h0 _ (ix2 r s) ix0 (fun a => a.elim0), constant_apply]

/-- The body's result at a local index is the whole-array expression at an array index, when the block's entry there is
    the array's and the bias block's entry in the local column is the bias array's in the array index's column. -/
theorem block_apply (h1 : S1x128.BroadcastsInDim S50000x128 ![0, 1]) (h0 : S_.BroadcastsInDim S50000x128 ![]) (X : FVec Ideal S50000x128 .f32) (B : FVec Ideal S1x128 .f32)
    (xb : Vec Ideal S2000x128 .f32) (bb : Vec Ideal S1x128 .f32) (j : S2000x128.Idx) (i : S50000x128.Idx)
    (hx : xb (ix2 (j 0) (j 1)) = X (ix2 (i 0) (i 1)))
    (hb : bb (ix2 (0 : Fin 1) (j 1)) = B (ix2 (0 : Fin 1) (i 1))) :
    k1_pay1 xb bb j = (maximumf (addf X (broadcastInDim S50000x128 ![0, 1] h1 B)) (broadcastInDim S50000x128 ![] h0 (constant (F := Ideal) S_ .f32 0x00000000#32))) i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have hx' : xb (ix2 p q) = X (ix2 r s) := hx
  have hb' : bb (ix2 (0 : Fin 1) q) = B (ix2 (0 : Fin 1) s) := hb
  rw [payload_apply, whole_apply, hx', hb']

/-- The printed index maps, decided over the 25 grid points: the input's block and the output's block are the same block
    of rows, on the one block of columns; the bias row's block is the whole row. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every block of rows is some point's. -/
theorem index_onto : ∀ q0 : Fin 25, ∃ t : Fin cfg1.N, win1_2.index t = ![q0.val, 0] :=
  (by decide +kernel : ∀ q0 : Fin 25, ∃ t : Fin grid1.N, win1_2.index t = ![q0.val, 0])

variable (V : (c : Dev nD) → (b : Ref sig .tc) → Buf (Elt Ideal) ((c : Thread nD τ).loc b))

/-- What point `t` writes back is block `t` of the whole-array expression of the two arrays as the region finds them. -/
theorem flushed_eq (h1 : S1x128.BroadcastsInDim S50000x128 ![0, 1]) (h0 : S_.BroadcastsInDim S50000x128 ![]) (c : Dev nD) (t : Fin cfg1.N) :
    (dat1 V c).flushed 2 t = ((cfg1.win 2).blk t).view.read (Elt Ideal)
      (maximumf (addf (V c main_v43) (broadcastInDim S50000x128 ![0, 1] h1 (V c main_v44))) (broadcastInDim S50000x128 ![] h0 (constant (F := Ideal) S_ .f32 0x00000000#32))) := by
  show (cfg1.win 2).cut (grid1.coords t) ((dat1 V c).after 2 t) = _
  rw [after1_2]
  unfold out1_2
  rw [View.canon_unit_zero origin2]
  simp only [View.ld_unit_zero (S := S2000x128) origin2, View.ld_unit_zero (S := S1x128) origin2]
  obtain ⟨e0, e1, e2, e3, e4, e5⟩ := index_facts t
  funext j
  refine block_apply h1 h0 (V c main_v43) (V c main_v44) (iblk1 V c 0 t) (iblk1 V c 1 t) j (((cfg1.win 2).blk t).view.emb j) ?_ ?_
  · show V c main_v43 (((cfg1.win 0).blk t).view.emb (ix2 (j 0) (j 1)))
      = V c main_v43 (ix2 ((((cfg1.win 2).blk t).view.emb j) 0) ((((cfg1.win 2).blk t).view.emb j) 1))
    refine congrArg (V c main_v43) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · show V c main_v44 (((cfg1.win 1).blk t).view.emb (ix2 (0 : Fin 1) (j 1)))
      = V c main_v44 (ix2 (0 : Fin 1) ((((cfg1.win 2).blk t).view.emb j) 1))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 row blocks cover the output array: row r is in block r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the region its output array is the whole-array expression of the two arrays as the region found them. -/
theorem output_eq (h1 : S1x128.BroadcastsInDim S50000x128 ![0, 1]) (h0 : S_.BroadcastsInDim S50000x128 ![]) (c : Dev nD) :
    (dat1 V c).arrAt 2 cfg1.N
      = maximumf (addf (V c main_v43) (broadcastInDim S50000x128 ![0, 1] h1 (V c main_v44))) (broadcastInDim S50000x128 ![] h0 (constant (F := Ideal) S_ .f32 0x00000000#32)) :=
  (dat1 V c).arrAt_eq_of_cover 2 _ (fun t _ => flushed_eq V h1 h0 c t) covered

end Cert.KernelIdeal.Layers.Epilogue1

end
-- ==== Proof.Epilogue2.lean ====
/-
  The second layer's epilogue: after the fourth kernel region its output array is agg + b2.

  The grid has 25 points; point t stages rows 2000·t … 2000·t + 1999 of the aggregated features, the one row of the
  bias, and writes back the same rows of the output.  The body adds the bias row to every row of its block:
  the entry it leaves at the local index (p, q) is x (2000·t + p, q) + b (0, q).  That is the entry at
  (2000·t + p, q) of the whole-array expression "x plus the bias row repeated down the rows", and the 25 row blocks tile the 50000 rows: after the region the output array is that expression of the
  two arrays the region found, whatever they hold.  Both sides are the same sum on the extended reals.
-/
import proofs.«110877_j2284922601980_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Layers.Epilogue2

open Idealize.ShloMosaic Idealize.ShloMosaic.TcCoe Idealize.ShloMosaic.ValueIdx Idealize.SL.Sem
open Cert.KernelIdeal Cert.KernelIdeal.Gen

/-- The offset (0, 0) of a whole-buffer rectangle is the zero offset. -/
theorem origin2 : (![0, 0] : Fin 2 → Nat) = fun _ => 0 := funext fun a => by fin_cases a <;> rfl

/-- The body's result at the local index (p, q): the block's entry plus the bias row's entry in that column. -/
theorem payload_apply (xb : Vec Ideal S2000x64 .f32) (bb : Vec Ideal S1x64 .f32) (p : Fin 2000) (q : Fin 64) :
    k3_pay1 xb bb (ix2 p q) = xb (ix2 p q) + bb (ix2 (0 : Fin 1) q) := by
  unfold k3_pay1
  simp only [shapeCast_self]
  rw [addf_apply, broadcastTo_1b_ab_apply]

/-- The whole-array expression at the index (r, s): the array's entry plus the bias row's entry in column s. -/
theorem whole_apply (h1 : S1x64.BroadcastsInDim S50000x64 ![0, 1]) (X : FVec Ideal S50000x64 .f32) (B : FVec Ideal S1x64 .f32)
    (r : Fin 50000) (s : Fin 64) :
    (addf (F := Ideal) (φ := .f32) X (broadcastInDim S50000x64 ![0, 1] h1 B)) (ix2 r s) = X (ix2 r s) + B (ix2 (0 : Fin 1) s) := by
  rw [addf_apply, broadcastInDim_apply ![0, 1] h1 B (ix2 r s) (ix2 (0 : Fin 1) s) (fun a => by
    match a with
    | ⟨0, _⟩ => rfl
    | ⟨1, _⟩ => rfl)]

/-- The body's result at a local index is the whole-array expression at an array index, when the block's entry there is
    the array's and the bias block's entry in the local column is the bias array's in the array index's column. -/
theorem block_apply (h1 : S1x64.BroadcastsInDim S50000x64 ![0, 1]) (X : FVec Ideal S50000x64 .f32) (B : FVec Ideal S1x64 .f32)
    (xb : Vec Ideal S2000x64 .f32) (bb : Vec Ideal S1x64 .f32) (j : S2000x64.Idx) (i : S50000x64.Idx)
    (hx : xb (ix2 (j 0) (j 1)) = X (ix2 (i 0) (i 1)))
    (hb : bb (ix2 (0 : Fin 1) (j 1)) = B (ix2 (0 : Fin 1) (i 1))) :
    k3_pay1 xb bb j = (addf (F := Ideal) (φ := .f32) X (broadcastInDim S50000x64 ![0, 1] h1 B)) i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  have hx' : xb (ix2 p q) = X (ix2 r s) := hx
  have hb' : bb (ix2 (0 : Fin 1) q) = B (ix2 (0 : Fin 1) s) := hb
  rw [payload_apply, whole_apply, hx', hb']

/-- The printed index maps, decided over the 25 grid points: the input's block and the output's block are the same block
    of rows, on the one block of columns; the bias row's block is the whole row. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every block of rows is some point's. -/
theorem index_onto : ∀ q0 : Fin 25, ∃ t : Fin cfg3.N, win3_2.index t = ![q0.val, 0] :=
  (by decide +kernel : ∀ q0 : Fin 25, ∃ t : Fin grid3.N, win3_2.index t = ![q0.val, 0])

variable (V : (c : Dev nD) → (b : Ref sig .tc) → Buf (Elt Ideal) ((c : Thread nD τ).loc b))

/-- What point `t` writes back is block `t` of the whole-array expression of the two arrays as the region finds them. -/
theorem flushed_eq (h1 : S1x64.BroadcastsInDim S50000x64 ![0, 1]) (c : Dev nD) (t : Fin cfg3.N) :
    (dat3 V c).flushed 2 t = ((cfg3.win 2).blk t).view.read (Elt Ideal)
      (addf (F := Ideal) (φ := .f32) (V c main_v59) (broadcastInDim S50000x64 ![0, 1] h1 (V c main_v60))) := by
  show (cfg3.win 2).cut (grid3.coords t) ((dat3 V c).after 2 t) = _
  rw [after3_2]
  unfold out3_2
  rw [View.canon_unit_zero origin2]
  simp only [View.ld_unit_zero (S := S2000x64) origin2, View.ld_unit_zero (S := S1x64) origin2]
  obtain ⟨e0, e1, e2, e3, e4, e5⟩ := index_facts t
  funext j
  refine block_apply h1 (V c main_v59) (V c main_v60) (iblk3 V c 0 t) (iblk3 V c 1 t) j (((cfg3.win 2).blk t).view.emb j) ?_ ?_
  · show V c main_v59 (((cfg3.win 0).blk t).view.emb (ix2 (j 0) (j 1)))
      = V c main_v59 (ix2 ((((cfg3.win 2).blk t).view.emb j) 0) ((((cfg3.win 2).blk t).view.emb j) 1))
    refine congrArg (V c main_v59) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  · show V c main_v60 (((cfg3.win 1).blk t).view.emb (ix2 (0 : Fin 1) (j 1)))
      = V c main_v60 (ix2 (0 : Fin 1) ((((cfg3.win 2).blk t).view.emb j) 1))
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- The 25 row blocks cover the output array: row r is in block r / 2000. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the region its output array is the whole-array expression of the two arrays as the region found them. -/
theorem output_eq (h1 : S1x64.BroadcastsInDim S50000x64 ![0, 1]) (c : Dev nD) :
    (dat3 V c).arrAt 2 cfg3.N
      = addf (F := Ideal) (φ := .f32) (V c main_v59) (broadcastInDim S50000x64 ![0, 1] h1 (V c main_v60)) :=
  (dat3 V c).arrAt_eq_of_cover 2 _ (fun t _ => flushed_eq V h1 c t) covered

end Cert.KernelIdeal.Layers.Epilogue2

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowForms.lean ====
/-
  A vector laid out as a row in two ways.

  A vector [C] becomes the row [1, C] either by a reshape or by a broadcast onto axis 1: both read, at (0, c),
  the vector at c, so they are the same row.
-/
import proofs.«110877_j2284922601980_1_alg».proof.Proof.LibRows

noncomputable section

namespace Cert.Lib.RowForms

open Idealize.ShloMosaic Idealize.ShloMosaic.ValueIdx

variable {α : Type}

/-- A vector [C] broadcast onto axis 1 of [1, C] is the vector reshaped to [1, C]. -/
theorem broadcastInDim_row_eq_shapeCast {C : Nat} (b : (⟨1, ![C]⟩ : Shape).Idx → α)
    (hb : (⟨1, ![C]⟩ : Shape).BroadcastsInDim ⟨2, ![1, C]⟩ (![1] : Fin 1 → Fin 2))
    (hs : (⟨1, ![C]⟩ : Shape).ShapeCasts ⟨2, ![1, C]⟩) :
    broadcastInDim ⟨2, ![1, C]⟩ (![1] : Fin 1 → Fin 2) hb b = shapeCast ⟨2, ![1, C]⟩ b hs := by
  funext j
  obtain ⟨p, q, rfl⟩ : ∃ (p : Fin 1) (q : Fin C), j = ix2 p q := ⟨j 0, j 1, eq_ix2 j⟩
  obtain rfl : p = 0 := Subsingleton.elim _ _
  rw [Cert.Lib.Rows.shapeCast_vec_row_apply]
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

end Cert.Lib.RowForms

end
-- ==== Proof.Network.lean ====
/-
  What the idealized kernel computes: the two-layer graph convolution, as one function of its six argument arrays.

  network ei x W1 b1 W2 b2 = aggregate (max (aggregate (x · W1) + b1, 0) · W2) + b2, where "aggregate" sums, into each
  node's row, the rows of the nodes with an edge to it, each scaled by the edge's weight, and a bias is a row repeated
  down the 50000 rows.  The run's buffer contents are followed from boundary to boundary: the three host stretches leave
  the edges and their weights; each kernel region replaces its output array by the region's whole-array value of its two
  input arrays and keeps every buffer that is not one of its three arrays; each host stretch in between leaves one
  aggregation of the array the region before it wrote and a bias laid out as a row, and keeps the edges, the weights
  and the parameters still to be used.  A bias laid out as a row by a reshape is the same row as the bias broadcast onto
  axis 1.  So the result buffer, after the last region, holds the network of the launch contents of the arguments.
-/
import proofs.«110877_j2284922601980_1_alg».proof.Proof.Gen.KernelIdeal.Frame
import proofs.«110877_j2284922601980_1_alg».proof.Proof.Chain
import proofs.«110877_j2284922601980_1_alg».proof.Proof.Linear1
import proofs.«110877_j2284922601980_1_alg».proof.Proof.Linear2
import proofs.«110877_j2284922601980_1_alg».proof.Proof.Epilogue1
import proofs.«110877_j2284922601980_1_alg».proof.Proof.Epilogue2
import proofs.«110877_j2284922601980_1_alg».proof.Proof.LibRowForms

set_option maxRecDepth 16384

noncomputable section

namespace Cert.KernelIdeal.Network

open Idealize.ShloMosaic Idealize.ShloMosaic.TcCoe Idealize.SL.Sem
open Cert.KernelIdeal Cert.KernelIdeal.Gen Cert.KernelIdeal.Chain Cert.KernelIdeal.Layers

/-- A row [1, 128] repeats down 50000 rows; a row [1, 64] likewise; a vector lies along axis 1 of a one-row matrix. -/
theorem row128 : S1x128.BroadcastsInDim S50000x128 ![0, 1] := by decide
theorem row64 : S1x64.BroadcastsInDim S50000x64 ![0, 1] := by decide
theorem vec128 : S128.BroadcastsInDim S1x128 ![1] := by decide
theorem vec64 : S64.BroadcastsInDim S1x64 ![1] := by decide

/-- The two-layer graph convolution of node features `x` over the edge list `ei`, with the two layers' weights and biases. -/
def network (ei : (⟨S2x800000, .i32⟩ : BufTy).Contents (Elt Ideal)) (x : FVec Ideal S50000x128 .f32) (w1 : FVec Ideal S128x128 .f32)
    (b1 : FVec Ideal S128 .f32) (w2 : FVec Ideal S128x64 .f32) (b2 : FVec Ideal S64 .f32) : FVec Ideal S50000x64 .f32 :=
  addf (F := Ideal) (φ := .f32)
    (aggregate64 (F := Ideal) (sources (F := Ideal) ei) (targets (F := Ideal) ei) (weights (F := Ideal) (sources (F := Ideal) ei) (targets (F := Ideal) ei))
      (Host.dotGeneral (F := Ideal) (φ₁ := .f32) (φ₂ := .f32) (DotDims.plain 50000 128 64) none
        (maximumf
          (addf (F := Ideal) (φ := .f32)
            (aggregate128 (F := Ideal) (sources (F := Ideal) ei) (targets (F := Ideal) ei) (weights (F := Ideal) (sources (F := Ideal) ei) (targets (F := Ideal) ei))
              (Host.dotGeneral (F := Ideal) (φ₁ := .f32) (φ₂ := .f32) (DotDims.plain 50000 128 128) none x w1))
            (broadcastInDim S50000x128 ![0, 1] row128 (broadcastInDim S1x128 ![1] vec128 b1)))
          (broadcastInDim S50000x128 ![] bcast_S_S50000x128 (constant (F := Ideal) S_ .f32 0x00000000#32)))
        w2))
    (broadcastInDim S50000x64 ![0, 1] row64 (broadcastInDim S1x64 ![1] vec64 b2))

variable (m : (ℓ : Loc nD τ sig) → Buf (Elt Ideal) ℓ) (ρ : Dev nD → PrngReg) (c : Dev nD)

/-! ## At the first region's entry: the edges, their weights, the arguments -/

theorem entry1_sources : W3 m ρ c (Proc.devRef .tc main_v3) = (sources (F := Ideal) (m ((c : Thread nD τ).loc main_arg1))) := Chain.prepared_sources (W0 m ρ c)
theorem entry1_targets : W3 m ρ c (Proc.devRef .tc main_v6) = (targets (F := Ideal) (m ((c : Thread nD τ).loc main_arg1))) := Chain.prepared_targets (W0 m ρ c)
theorem entry1_weights : W3 m ρ c (Proc.devRef .tc main_v29) = (weights (F := Ideal) (sources (F := Ideal) (m ((c : Thread nD τ).loc main_arg1))) (targets (F := Ideal) (m ((c : Thread nD τ).loc main_arg1)))) := Chain.prepared_weights (W0 m ρ c)
theorem entry1_x : W3 m ρ c (Proc.devRef .tc main_arg0) = (m ((c : Thread nD τ).loc main_arg0)) := (Chain.prepared_args (W0 m ρ c)).1
theorem entry1_w1 : W3 m ρ c (Proc.devRef .tc main_arg2) = (m ((c : Thread nD τ).loc main_arg2)) := (Chain.prepared_args (W0 m ρ c)).2.1
theorem entry1_b1 : W3 m ρ c (Proc.devRef .tc main_arg3) = (m ((c : Thread nD τ).loc main_arg3)) := (Chain.prepared_args (W0 m ρ c)).2.2.1
theorem entry1_w2 : W3 m ρ c (Proc.devRef .tc main_arg4) = (m ((c : Thread nD τ).loc main_arg4)) := (Chain.prepared_args (W0 m ρ c)).2.2.2.1
theorem entry1_b2 : W3 m ρ c (Proc.devRef .tc main_arg5) = (m ((c : Thread nD τ).loc main_arg5)) := (Chain.prepared_args (W0 m ρ c)).2.2.2.2

/-! ## After the first region: x · W1 -/

theorem exit1_hidden : W4 m ρ c (Proc.devRef .tc main_v30) = (Host.dotGeneral (F := Ideal) (φ₁ := .f32) (φ₂ := .f32) (DotDims.plain 50000 128 128) none (m ((c : Thread nD τ).loc main_arg0)) (m ((c : Thread nD τ).loc main_arg2))) := by
  have h := Linear1.output_eq (V3 m ρ) c
  rw [show V3 m ρ c main_arg0 = (m ((c : Thread nD τ).loc main_arg0)) from entry1_x m ρ c, show V3 m ρ c main_arg2 = (m ((c : Thread nD τ).loc main_arg2)) from entry1_w1 m ρ c] at h
  exact (W4_arr m ρ c 2).trans h

/-! ## At the second region's entry: the first aggregation and the first bias row -/

theorem entry2_aggregate : W5 m ρ c (Proc.devRef .tc main_v43) = (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) := by
  refine (Chain.first_aggregate (W4 m ρ c)).trans ?_
  rw [W4_of_ne m ρ c main_v3 (by decide), W4_of_ne m ρ c main_v6 (by decide), W4_of_ne m ρ c main_v29 (by decide),
    exit1_hidden, entry1_sources, entry1_targets, entry1_weights]

theorem entry2_row : W5 m ρ c (Proc.devRef .tc main_v44) = (shapeCast S1x128 ((m ((c : Thread nD τ).loc main_arg3)) : (⟨S128, .f32⟩ : BufTy).Contents (Elt Ideal)) shapeCasts_S128_S1x128) := by
  refine (Chain.first_bias_row (W4 m ρ c)).trans ?_
  rw [W4_of_ne m ρ c main_arg3 (by decide), entry1_b1]

theorem entry2_sources : W5 m ρ c (Proc.devRef .tc main_v3) = (sources (F := Ideal) (m ((c : Thread nD τ).loc main_arg1))) :=
  ((Chain.first_keeps (W4 m ρ c)).1.trans (W4_of_ne m ρ c main_v3 (by decide))).trans (entry1_sources m ρ c)
theorem entry2_targets : W5 m ρ c (Proc.devRef .tc main_v6) = (targets (F := Ideal) (m ((c : Thread nD τ).loc main_arg1))) :=
  ((Chain.first_keeps (W4 m ρ c)).2.1.trans (W4_of_ne m ρ c main_v6 (by decide))).trans (entry1_targets m ρ c)
theorem entry2_weights : W5 m ρ c (Proc.devRef .tc main_v29) = (weights (F := Ideal) (sources (F := Ideal) (m ((c : Thread nD τ).loc main_arg1))) (targets (F := Ideal) (m ((c : Thread nD τ).loc main_arg1)))) :=
  ((Chain.first_keeps (W4 m ρ c)).2.2.1.trans (W4_of_ne m ρ c main_v29 (by decide))).trans (entry1_weights m ρ c)
theorem entry2_w2 : W5 m ρ c (Proc.devRef .tc main_arg4) = (m ((c : Thread nD τ).loc main_arg4)) :=
  ((Chain.first_keeps (W4 m ρ c)).2.2.2.1.trans (W4_of_ne m ρ c main_arg4 (by decide))).trans (entry1_w2 m ρ c)
theorem entry2_b2 : W5 m ρ c (Proc.devRef .tc main_arg5) = (m ((c : Thread nD τ).loc main_arg5)) :=
  ((Chain.first_keeps (W4 m ρ c)).2.2.2.2.trans (W4_of_ne m ρ c main_arg5 (by decide))).trans (entry1_b2 m ρ c)

/-! ## After the second region: max (aggregate + b1, 0) -/

theorem exit2_activation : W6 m ρ c (Proc.devRef .tc main_v45) = (maximumf (addf (F := Ideal) (φ := .f32) (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) (broadcastInDim S50000x128 ![0, 1] row128 (shapeCast S1x128 ((m ((c : Thread nD τ).loc main_arg3)) : (⟨S128, .f32⟩ : BufTy).Contents (Elt Ideal)) shapeCasts_S128_S1x128))) (broadcastInDim S50000x128 ![] bcast_S_S50000x128 (constant (F := Ideal) S_ .f32 0x00000000#32))) := by
  have h := Epilogue1.output_eq (V5 m ρ) row128 bcast_S_S50000x128 c
  rw [show V5 m ρ c main_v43 = (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) from entry2_aggregate m ρ c,
    show V5 m ρ c main_v44 = (shapeCast S1x128 ((m ((c : Thread nD τ).loc main_arg3)) : (⟨S128, .f32⟩ : BufTy).Contents (Elt Ideal)) shapeCasts_S128_S1x128) from entry2_row m ρ c] at h
  exact (W6_arr m ρ c 2).trans h

/-! ## After the third region: the activation · W2 -/

theorem exit3_hidden : W7 m ρ c (Proc.devRef .tc main_v46) = (Host.dotGeneral (F := Ideal) (φ₁ := .f32) (φ₂ := .f32) (DotDims.plain 50000 128 64) none (maximumf (addf (F := Ideal) (φ := .f32) (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) (broadcastInDim S50000x128 ![0, 1] row128 (shapeCast S1x128 ((m ((c : Thread nD τ).loc main_arg3)) : (⟨S128, .f32⟩ : BufTy).Contents (Elt Ideal)) shapeCasts_S128_S1x128))) (broadcastInDim S50000x128 ![] bcast_S_S50000x128 (constant (F := Ideal) S_ .f32 0x00000000#32))) (m ((c : Thread nD τ).loc main_arg4))) := by
  have h := Linear2.output_eq (V6 m ρ) c
  rw [show V6 m ρ c main_v45 = (maximumf (addf (F := Ideal) (φ := .f32) (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) (broadcastInDim S50000x128 ![0, 1] row128 (shapeCast S1x128 ((m ((c : Thread nD τ).loc main_arg3)) : (⟨S128, .f32⟩ : BufTy).Contents (Elt Ideal)) shapeCasts_S128_S1x128))) (broadcastInDim S50000x128 ![] bcast_S_S50000x128 (constant (F := Ideal) S_ .f32 0x00000000#32))) from exit2_activation m ρ c,
    show V6 m ρ c main_arg4 = (m ((c : Thread nD τ).loc main_arg4)) from (W6_of_ne m ρ c main_arg4 (by decide)).trans (entry2_w2 m ρ c)] at h
  exact (W7_arr m ρ c 2).trans h

theorem exit3_sources : W7 m ρ c (Proc.devRef .tc main_v3) = (sources (F := Ideal) (m ((c : Thread nD τ).loc main_arg1))) :=
  ((W7_of_ne m ρ c main_v3 (by decide)).trans (W6_of_ne m ρ c main_v3 (by decide))).trans (entry2_sources m ρ c)
theorem exit3_targets : W7 m ρ c (Proc.devRef .tc main_v6) = (targets (F := Ideal) (m ((c : Thread nD τ).loc main_arg1))) :=
  ((W7_of_ne m ρ c main_v6 (by decide)).trans (W6_of_ne m ρ c main_v6 (by decide))).trans (entry2_targets m ρ c)
theorem exit3_weights : W7 m ρ c (Proc.devRef .tc main_v29) = (weights (F := Ideal) (sources (F := Ideal) (m ((c : Thread nD τ).loc main_arg1))) (targets (F := Ideal) (m ((c : Thread nD τ).loc main_arg1)))) :=
  ((W7_of_ne m ρ c main_v29 (by decide)).trans (W6_of_ne m ρ c main_v29 (by decide))).trans (entry2_weights m ρ c)
theorem exit3_b2 : W7 m ρ c (Proc.devRef .tc main_arg5) = (m ((c : Thread nD τ).loc main_arg5)) :=
  ((W7_of_ne m ρ c main_arg5 (by decide)).trans (W6_of_ne m ρ c main_arg5 (by decide))).trans (entry2_b2 m ρ c)

/-! ## At the fourth region's entry: the second aggregation and the second bias row -/

theorem entry4_aggregate : W8 m ρ c (Proc.devRef .tc main_v59) = (aggregate64 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 64) none (maximumf (addf (F := Ideal) (φ := .f32) (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) (broadcastInDim S50000x128 ![0, 1] row128 (shapeCast S1x128 ((m ((c : Thread nD τ).loc main_arg3)) : (⟨S128, .f32⟩ : BufTy).Contents (Elt Ideal)) shapeCasts_S128_S1x128))) (broadcastInDim S50000x128 ![] bcast_S_S50000x128 (constant (F := Ideal) S_ .f32 0x00000000#32))) (m ((c : Thread nD τ).loc main_arg4)))) := by
  refine (Chain.second_aggregate (W7 m ρ c)).trans ?_
  rw [exit3_hidden, exit3_sources, exit3_targets, exit3_weights]

theorem entry4_row : W8 m ρ c (Proc.devRef .tc main_v60) = (shapeCast S1x64 ((m ((c : Thread nD τ).loc main_arg5)) : (⟨S64, .f32⟩ : BufTy).Contents (Elt Ideal)) shapeCasts_S64_S1x64) := by
  refine (Chain.second_bias_row (W7 m ρ c)).trans ?_
  rw [exit3_b2]

/-! ## After the fourth region: the result -/

/-- The result buffer after the run holds the network of the arguments' launch contents. -/
theorem result_eq : W9 m ρ c (Proc.devRef .tc main_v61) = network (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  have h := Epilogue2.output_eq (V8 m ρ) row64 c
  rw [show V8 m ρ c main_v59 = (aggregate64 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 64) none (maximumf (addf (F := Ideal) (φ := .f32) (aggregate128 (F := Ideal) (sources (F := Ideal) (m ((c : Thread nD τ).loc main_arg1))) (targets (F := Ideal) (m ((c : Thread nD τ).loc main_arg1))) (weights (F := Ideal) (sources (F := Ideal) (m ((c : Thread nD τ).loc main_arg1))) (targets (F := Ideal) (m ((c : Thread nD τ).loc main_arg1)))) (Host.dotGeneral (F := Ideal) (φ₁ := .f32) (φ₂ := .f32) (DotDims.plain 50000 128 128) none (m ((c : Thread nD τ).loc main_arg0)) (m ((c : Thread nD τ).loc main_arg2)))) (broadcastInDim S50000x128 ![0, 1] row128 (shapeCast S1x128 ((m ((c : Thread nD τ).loc main_arg3)) : (⟨S128, .f32⟩ : BufTy).Contents (Elt Ideal)) shapeCasts_S128_S1x128))) (broadcastInDim S50000x128 ![] bcast_S_S50000x128 (constant (F := Ideal) S_ .f32 0x00000000#32))) (m ((c : Thread nD τ).loc main_arg4)))) from entry4_aggregate m ρ c,
    show V8 m ρ c main_v60 = (shapeCast S1x64 ((m ((c : Thread nD τ).loc main_arg5)) : (⟨S64, .f32⟩ : BufTy).Contents (Elt Ideal)) shapeCasts_S64_S1x64) from entry4_row m ρ c] at h
  refine ((W9_arr m ρ c 2).trans h).trans ?_
  unfold network
  rw [Cert.Lib.RowForms.broadcastInDim_row_eq_shapeCast (C := 128) _ vec128 shapeCasts_S128_S1x128,
    Cert.Lib.RowForms.broadcastInDim_row_eq_shapeCast (C := 64) _ vec64 shapeCasts_S64_S1x64]

end Cert.KernelIdeal.Network

end
-- ==== Proof.RefNetwork.lean ====
/-
  The idealized reference computes the same function of its arguments.

  Its one straight line of host operations composes, operation for operation and in the same order, the edges with self
  loops, the degrees and inverse roots, the edge weights, x · W1, the first aggregation, the bias and the maximum with
  zero, the product with W2, the second aggregation and the second bias.  The result term of its run is therefore the
  two-layer network of its arguments, read off by unfolding both sides to the operations: they differ only in which
  program's copy of a shape or of an operation's dimension record is named, and the copies are the same records.
-/
import proofs.«110877_j2284922601980_1_alg».proof.Proof.RefRun
import proofs.«110877_j2284922601980_1_alg».proof.Proof.Network

set_option maxRecDepth 16384

noncomputable section

namespace Cert.ReferenceIdeal.RefNetwork

open Idealize.ShloMosaic Idealize.ShloMosaic.TcCoe Idealize.SL.Sem

set_option maxHeartbeats 4000000 in
/-- The reference run's result term is the network of the reference's argument arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v64 (F := Ideal) m c
      = Cert.KernelIdeal.Network.network (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v64 Cert.KernelIdeal.Network.network Cert.KernelIdeal.Chain.aggregate64
    Cert.KernelIdeal.Chain.aggregate128 Cert.KernelIdeal.Chain.weights Cert.KernelIdeal.Chain.inverseRoot
    Cert.KernelIdeal.Chain.degree Cert.KernelIdeal.Chain.wrapped Cert.KernelIdeal.Chain.sources Cert.KernelIdeal.Chain.targets
  rfl

end Cert.ReferenceIdeal.RefNetwork

end
-- ==== Proof.lean ====
/-
  A two-layer graph convolution over 50000 nodes and 800000 edges: the kernel against its reference, at the ideal values.

  Both programs add one self loop per node, count each node's degree, weigh every edge by the inverse square roots of the
  degrees of its two ends, and apply twice "multiply the node features by a weight matrix, add into each node the weighted
  rows of the nodes with an edge to it, add a bias" — with a maximum with zero after the first layer.  The kernel does
  the two matrix products and the two bias additions (the first with its maximum) in four kernel regions, each on a grid
  of 25 blocks of 2000 rows, and leaves the gathers and scatter-adds to the host; the reference does everything on the
  host.

  At the ideal values a change of float format is the identity and a matrix product on the matrix unit into the zero
  accumulator is the same sum over the contraction index as the host's dot product, so each region leaves in its output
  array the whole-array value the reference computes there: x · W1, max (aggregate + b1, 0), the product with W2,
  aggregate + b2 (25 row blocks tile the 50000 rows).  The host operations between the regions are the reference's own,
  applied to equal arrays, and are never opened.  Hence both runs end with the result buffer at one and the same function,
  `network`, of the six argument arrays; no finiteness of the inputs is used.  The idealization rewrote no operation, so
  the sanctioned-idealization conjunct is trivial; the three frames are the generated ones (the reference's is its run
  with the result dropped).
-/
import proofs.«110877_j2284922601980_1_alg».proof.Defs
import proofs.«110877_j2284922601980_1_alg».proof.Proof.Gen.Kernel
import proofs.«110877_j2284922601980_1_alg».proof.Proof.Gen.Kernel.Skeleton
import proofs.«110877_j2284922601980_1_alg».proof.Proof.Gen.Kernel.Launch
import proofs.«110877_j2284922601980_1_alg».proof.Proof.Gen.Kernel.Points
import proofs.«110877_j2284922601980_1_alg».proof.Proof.Gen.Kernel.Frame
import proofs.«110877_j2284922601980_1_alg».proof.Proof.Gen.KernelIdeal
import proofs.«110877_j2284922601980_1_alg».proof.Proof.Gen.KernelIdeal.Skeleton
import proofs.«110877_j2284922601980_1_alg».proof.Proof.Gen.KernelIdeal.Launch
import proofs.«110877_j2284922601980_1_alg».proof.Proof.Gen.KernelIdeal.Points
import proofs.«110877_j2284922601980_1_alg».proof.Proof.Gen.KernelIdeal.Frame
import proofs.«110877_j2284922601980_1_alg».proof.Proof.Gen.ReferenceIdeal
import proofs.«110877_j2284922601980_1_alg».proof.Proof.Gen.Pre_finite_inputs
import proofs.«110877_j2284922601980_1_alg».proof.Proof.NamedRun
import proofs.«110877_j2284922601980_1_alg».proof.Proof.Network
import proofs.«110877_j2284922601980_1_alg».proof.Proof.RefRun
import proofs.«110877_j2284922601980_1_alg».proof.Proof.RefNetwork
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs end with the result buffer at the network of the
    arguments. -/
theorem algebraic : Cert.algebraic_KernelIdeal_ReferenceIdeal := by
  intro m ρ m' ρ' _ hagree
  refine ⟨fun c => Cert.KernelIdeal.Network.network (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Network.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefNetwork.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
